-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn {F : FTy → Type} [FloatOps F] (main_arg0 : FVec F S100000x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  main_v3
-- ==== Kernel.lean ====
abbrev S100000x128 : Shape := ⟨2, ![100000, 128]⟩
abbrev S12800000 : Shape := ⟨1, ![12800000]⟩
abbrev S2432 : Shape := ⟨1, ![2432]⟩
abbrev S_ : Shape := ⟨0, ![]⟩
abbrev S19x128 : Shape := ⟨2, ![19, 128]⟩

abbrev nBuf : Table → Nat
  | .hbm => 4
  | _ => 0

abbrev bufTy : (tb : Table) → Fin (nBuf tb) → BufTy
  | .hbm, ⟨0, _⟩ => ⟨S100000x128, .f32⟩
  | .hbm, ⟨1, _⟩ => ⟨S12800000, .f32⟩
  | .hbm, ⟨2, _⟩ => ⟨S2432, .f32⟩
  | .hbm, ⟨3, _⟩ => ⟨S19x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scs : Ref sig .scScalar := ⟨.hbm, 1, rfl⟩
abbrev main_v1_scs : Ref sig .scScalar := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  shapeCasts_S100000x128_S12800000 : S100000x128.ShapeCasts S12800000
  inb_S12800000_S2432_256 : ∀ a, (![256] : Fin 1 → Nat) a + S2432.size a ≤ S12800000.size a
  shapeCasts_S2432_S19x128 : S2432.ShapeCasts S19x128
  hcc0_scoped0 : 0 + S_.numel ≤ 1
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scoped0 : DmaSems sig S_ := SemArray.consecutive 0 S_ hcc0_scoped0

class Facts : Prop extends Facts₀ where

variable [Facts]
-- ==== ReferenceIdeal.lean ====
abbrev S100000x128 : Shape := ⟨2, ![100000, 128]⟩
abbrev S19 : Shape := ⟨1, ![19]⟩
abbrev S1x19 : Shape := ⟨2, ![1, 19]⟩
abbrev S_ : Shape := ⟨0, ![]⟩
abbrev S19x1 : Shape := ⟨2, ![19, 1]⟩
abbrev S1 : Shape := ⟨1, ![1]⟩
abbrev S1x1 : Shape := ⟨2, ![1, 1]⟩
abbrev S19x128 : Shape := ⟨2, ![19, 128]⟩

abbrev nBuf : Space → Nat
  | .hbm => 32
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S19, .i32⟩
  | .hbm, ⟨2, _⟩ => ⟨S1x19, .i32⟩
  | .hbm, ⟨3, _⟩ => ⟨S_, .i32⟩
  | .hbm, ⟨4, _⟩ => ⟨S1x19, .i32⟩
  | .hbm, ⟨5, _⟩ => ⟨S1x19, .i32⟩
  | .hbm, ⟨6, _⟩ => ⟨S19, .i32⟩
  | .hbm, ⟨7, _⟩ => ⟨S1x19, .i32⟩
  | .hbm, ⟨8, _⟩ => ⟨S19, .i32⟩
  | .hbm, ⟨9, _⟩ => ⟨S_, .i32⟩
  | .hbm, ⟨10, _⟩ => ⟨S19, .i32⟩
  | .hbm, ⟨11, _⟩ => ⟨S19, .i1⟩
  | .hbm, ⟨12, _⟩ => ⟨S_, .i32⟩
  | .hbm, ⟨13, _⟩ => ⟨S19, .i32⟩
  | .hbm, ⟨14, _⟩ => ⟨S19, .i32⟩
  | .hbm, ⟨15, _⟩ => ⟨S19, .i32⟩
  | .hbm, ⟨16, _⟩ => ⟨S19x1, .i32⟩
  | .hbm, ⟨17, _⟩ => ⟨S1, .i32⟩
  | .hbm, ⟨18, _⟩ => ⟨S_, .i32⟩
  | .hbm, ⟨19, _⟩ => ⟨S19x1, .i32⟩
  | .hbm, ⟨20, _⟩ => ⟨S19x1, .i1⟩
  | .hbm, ⟨21, _⟩ => ⟨S1x1, .i32⟩
  | .hbm, ⟨22, _⟩ => ⟨S19x1, .i32⟩
  | .hbm, ⟨23, _⟩ => ⟨S19x1, .i1⟩
  | .hbm, ⟨24, _⟩ => ⟨S19x1, .i1⟩
  | .hbm, ⟨25, _⟩ => ⟨S_, .i1⟩
  | .hbm, ⟨26, _⟩ => ⟨S19, .i1⟩
  | .hbm, ⟨27, _⟩ => ⟨S19x128, .f32⟩
  | .hbm, ⟨28, _⟩ => ⟨S19x128, .i1⟩
  | .hbm, ⟨29, _⟩ => ⟨S_, .f32⟩
  | .hbm, ⟨30, _⟩ => ⟨S19x128, .f32⟩
  | .hbm, ⟨31, _⟩ => ⟨S19x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v7 : Ref sig .tc := ⟨.hbm, 31, rfl⟩

abbrev nD : Nat := 1
abbrev τ : Topo := Topo.v7x

variable {F : FTy → Type} [FloatOps F]

class Facts₀ : Prop where
  bcast_S19_S1x19_1 : S19.BroadcastsInDim S1x19 (![1] : Fin 1 → Fin S1x19.rank)
  bcast_S_S1x19 : S_.BroadcastsInDim S1x19 (![] : Fin 0 → Fin S1x19.rank)
  shapeCasts_S1x19_S19 : S1x19.ShapeCasts S19
  bcast_S_S19 : S_.BroadcastsInDim S19 (![] : Fin 0 → Fin S19.rank)
  bcast_S19_S19x1_0 : S19.BroadcastsInDim S19x1 (![0] : Fin 1 → Fin S19x1.rank)
  bcast_S_S19x1 : S_.BroadcastsInDim S19x1 (![] : Fin 0 → Fin S19x1.rank)
  bcast_S1_S1x1_1 : S1.BroadcastsInDim S1x1 (![1] : Fin 1 → Fin S1x1.rank)
  bcast_S1x1_S19x1_0_1 : S1x1.BroadcastsInDim S19x1 (![0, 1] : Fin 2 → Fin S19x1.rank)
  reducesTo_S19x1_S19_d1 : S19x1.ReducesTo [1] S19
  h_S_ : 0 < S_.numel
  bcast_S19_S19x128_0 : S19.BroadcastsInDim S19x128 (![0] : Fin 1 → Fin S19x128.rank)
  bcast_S_S19x128 : S_.BroadcastsInDim S19x128 (![] : Fin 0 → Fin S19x128.rank)
  gather_S100000x128_S19x1_S19x128_1_0_n_n_0_1_1128_wf : GatherDims.WF S100000x128 S19x1 S19x128 [1] [0] [] [0] [] 1 ![1, 128]

variable [Facts₀]

def gather_S100000x128_S19x1_S19x128_1_0_n_n_0_1_1128 : GatherDims S100000x128 S19x1 S19x128 where
  offsetDims := [1]
  collapsedSliceDims := [0]
  operandBatchingDims := []
  startIndicesBatchingDims := []
  startIndexMap := [0]
  indexVectorDim := 1
  sliceSizes := ![1, 128]
  wf := gather_S100000x128_S19x1_S19x128_1_0_n_n_0_1_1128_wf

class Facts : Prop extends Facts₀ where

variable [Facts]
-- ==== Proof.SliceCopy.lean ====
/-
  The kernel's run as printed (the word-level program), with its result named.

  The program: the TensorCore re-lays the [100000, 128] argument as a flat array of 12 800 000 elements, starts ONE
  SparseCore's sequencer and waits for it, then re-lays the 2432-element array the sequencer filled as [19, 128].
  The sequencer's whole body is one copy — elements 256 … 2687 of the flat array into the 2432-element array — issued
  and waited for on the kernel's one copy semaphore. Nothing else touches either array while the copy is pending, so
  after the wait the destination holds exactly the source slice.

  What is proved here, for any float instance: every weakly fair execution of all the device's threads terminates
  without a fault, the argument array ends unchanged, and the result array ends at the second re-laying of the slice
  of the first re-laying of the argument (`V3 … res'`). Of this program only termination and the unchanged argument
  are used; the same statement about the idealized program, whose text is the same, is where the result's value is read.

  The handshake between the TensorCore and the sequencer carries the two arrays: on the way in, the flat array at the
  re-laid contents and the destination at whatever it holds; on the way back, the flat array unchanged and the
  destination at the slice. The sequencer's one wait is on its own copy semaphore while it owes nothing of its own, so
  it is always admissible.
-/
import Idealize.ShloMosaic.Lib.SparseCore.Launch
import Idealize.ShloMosaic.Lib.StableHlo.Run
import Idealize.ShloMosaic.Lib.Pipeline.Kit
import Idealize.ShloMosaic.Lib.Tactic
import proofs.«212989_g28733331210852_cont_9to1_1382_5_alg».proof.Proof.Gen.Kernel
import proofs.«212989_g28733331210852_cont_9to1_1382_5_alg».proof.Proof.Gen.Kernel.Skeleton

noncomputable section

namespace Cert.Proof.SliceCopy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

local notation "flatW" => (Memref.whole Cert.Kernel.main_v0_scs : Memref Cert.Kernel.sig Kind.scScalar Space.hbm Cert.Kernel.S12800000 EltTy.f32)
local notation "outW" => (Memref.whole Cert.Kernel.main_v1_scs : Memref Cert.Kernel.sig Kind.scScalar Space.hbm Cert.Kernel.S2432 EltTy.f32)
abbrev xLoc (d : Dev nD) : Loc nD τ sig := (SparseCore.T d).loc main_arg0
abbrev flatLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2

variable [FloatOps F]

abbrev flatPts (d : Dev nD) (a : Buf (Elt F) (flatLoc d)) : sProp 𝕄 := flatLoc d ↦{fullShare} a
abbrev outPts (d : Dev nD) (f : Buf (Elt F) (outLoc d)) : sProp 𝕄 := outLoc d ↦{fullShare} f

/-- Elements 256 … 2687 of a flat array of 12 800 000: what the sequencer's copy carries. -/
def cut (d : Dev nD) (a : Buf (Elt F) (flatLoc d)) : Buf (Elt F) (outLoc d) :=
  ReadAs.same.apply
    (View.read (Elt F)
      ((flatW).slice (Rect.unit (s := S12800000) ![256] S2432.size inb_S12800000_S2432_256) (fun _ => rfl)).view a)

/-! ## The valuations of @main's arrays, step by step -/

abbrev x' : DevRef τ sig := Proc.devRef .tc (main_arg0 : Ref sig .tc)
abbrev flat' : DevRef τ sig := Proc.devRef .tc (main_v0 : Ref sig .tc)
abbrev out' : DevRef τ sig := Proc.devRef .tc (main_v1 : Ref sig .tc)
abbrev res' : DevRef τ sig := Proc.devRef .tc (main_v2 : Ref sig .tc)

/-- The first re-laying: [100000, 128] as a flat array. -/
abbrev opIn : HloOp τ sig (Elt F) := StableHlo.reshape main_arg0 main_v0 rfl shapeCasts_S100000x128_S12800000
/-- The second re-laying: 2432 elements as [19, 128]. -/
abbrev opOut : HloOp τ sig (Elt F) := StableHlo.reshape main_v1 main_v2 rfl shapeCasts_S2432_S19x128

/-- At the launch. -/
def V0 (d : Dev nD) : Valuation τ sig (Elt F) := fun b => m (d, b)
/-- After the first re-laying. -/
def V1 (d : Dev nD) : Valuation τ sig (Elt F) := (opIn (F := F)).result (V0 m d)
/-- After the sequencer's copy: the destination at the slice of the flat array. -/
def V2 (d : Dev nD) : Valuation τ sig (Elt F) := Function.update (V1 m d) out' (cut d (V1 m d flat'))
/-- After the second re-laying. -/
def V3 (d : Dev nD) : Valuation τ sig (Elt F) := (opOut (F := F)).result (V2 m d)

theorem V2_x (d : Dev nD) : V2 m d x' = V1 m d x' := Function.update_of_ne (show x' ≠ out' by decide) _ _
theorem V2_flat (d : Dev nD) : V2 m d flat' = V1 m d flat' := Function.update_of_ne (show flat' ≠ out' by decide) _ _
theorem V2_out (d : Dev nD) : V2 m d out' = cut d (V1 m d flat') := Function.update_self _ _ _
theorem V2_res (d : Dev nD) : V2 m d res' = V1 m d res' := Function.update_of_ne (show res' ≠ out' by decide) _ _

/-- The argument is written by neither re-laying nor by the copy. -/
theorem V3_x (d : Dev nD) : V3 m d x' = m (xLoc d) := by
  unfold V3
  rw [StableHlo.reshape_result_ne' (r := main_arg0) (h := by decide), V2_x]
  unfold V1
  rw [StableHlo.reshape_result_ne' (r := main_arg0) (h := by decide)]
  rfl

/-! ## What the handshakes carry -/

/-- Call 0's payloads: in, the flat array at its re-laid contents and the destination at anything; back, the flat array
    unchanged and the destination at the slice. The sequencer consumes nothing of the launch's. -/
def P : (K (F := F)).Pay (nD := nD) (Val := Elt F) (Name := ℕ) (U := UU) where
  st := fun _ d _ => iprop(flatPts d (V1 m d flat') ∗ ∃ f, outPts d f)
  dn := fun _ d _ => iprop(flatPts d (V1 m d flat') ∗ outPts d (cut d (V1 m d flat')))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's body -/

section Body

variable (d : Dev nD)

def coordsS (c : Fin (grid0.bound 0)) : grid0.Coords := fun | 0 => c | ⟨_ + 1, h⟩ => absurd h (Nat.not_lt.2 (Nat.le_add_left _ _))

abbrev c0cell (c : Fin τ.nSC) : GSem nD τ sig := (S d c, .dma cc0_scoped0.sem)

omit [FloatOps F] in
theorem ownSems0_S (c : Fin τ.nSC) :
    (ownSems0 (S d c) : sProp 𝕄) = iprop(semVal (c0cell d c) 0 ∗ bigSep ((ownCells (S d c)).erase (c0cell d c)) fun g => semVal g 0) := by
  unfold SparseCore.Cfg.ownSems0
  exact SparseCore.bigSep_erase' ((mem_ownCells (g := c0cell d c)).mpr ⟨rfl, by show (SemLoc.dma cc0_scoped0.sem : SemLoc sig).isScoped .scScalar = true; decide⟩)

omit [FloatOps F] in
/-- The flat array as the sequencer's memref addresses it is the TensorCore's array. -/
theorem pts_flat (c : Fin τ.nSC) (f : Buf (Elt F) (flatLoc d)) :
    ((flatW).view.loc (S d c) ↦{fullShare} f : sProp 𝕄) = flatLoc d ↦{fullShare} f := by
  simp only [Memref.view_whole, View.set_whole]
omit [FloatOps F] in
/-- The destination likewise. -/
theorem pts_out (c : Fin τ.nSC) (f : Buf (Elt F) (outLoc d)) :
    ((outW).view.loc (S d c) ↦{fullShare} f : sProp 𝕄) = outLoc d ↦{fullShare} f := by
  simp only [Memref.view_whole, View.set_whole]
omit [FloatOps F] in
/-- A write over the whole destination leaves exactly what was written. -/
theorem pts_out_written (c : Fin τ.nSC) (f w : Buf (Elt F) (outLoc d)) :
    ((outW).view.loc (S d c) ↦{fullShare} View.write (Elt F) (outW).view f w Finset.univ : sProp 𝕄) = outLoc d ↦{fullShare} w := by
  simp only [Memref.view_whole, View.set_whole, View.write_whole_univ]

/-- SparseCore 0's sequencer. -/
abbrev S0 (h : 0 < grid0.bound 0) : Thread nD τ := S d ((⟨0, h⟩ : Fin (grid0.bound 0)).castLE hcore0)

/-- The kernel on the sequencer: the copy is issued from the flat array's slice to the whole destination and waited for;
    afterwards the flat array is as it was and the destination holds the slice. -/
theorem body (h : 0 < grid0.bound 0) (O : CellTallies nD τ sig (HIx 1)) (W : Waits sig (HIx 1)) (hO : ∀ g, O g none = 0)
    (a : Buf (Elt F) (flatLoc d)) :
    iprop(levAts (K (F := F)).L (K (F := F)).lev ∗ emp ∗ (flatPts d a ∗ ∃ f, outPts d f)
        ∗ scopedBufs (S0 d h) ∗ scopedSems0 (S0 d h) ∗ owes (S0 d h) O W)
      ⊢ wp frame (wpE (defs₀ (F := F)) 𝒱₀ (S0 d h) none) Set.univ
          (cc0__sc_slice_copy (coordsS ⟨0, h⟩) flatW (Memref.isWhole_whole _) outW (Memref.isWhole_whole _) cc0_scoped0)
          fun _ => iprop((flatPts d a ∗ outPts d (cut d a)) ∗ scopedBufs (S0 d h) ∗ scopedSems0 (S0 d h)
            ∗ ∃ W', ⌜∀ p ∈ W', p ∈ W ∨ p.2 = none⌝ ∗ owes (S0 d h) O W') := by
  simp only [cc0__sc_slice_copy_eq_skeleton]; unfold cc0__sc_slice_copy_skel
  iintro ⟨#Hlv, -, ⟨Hx, %ft, Ht⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨Hsem, Hrest⟩
  ihave Hmw := ((K (F := F)).mayWaits_none (thr := S0 d h) hO) $$ Hlv
  ihave Hx' := (Entails.of_eq (pts_flat (F := F) d (((⟨0, h⟩ : Fin (grid0.bound 0))).castLE hcore0) _).symm) $$ Hx
  ihave Ht' := (Entails.of_eq (pts_out (F := F) d (((⟨0, h⟩ : Fin (grid0.bound 0))).castLE hcore0) _).symm) $$ Ht
  sl_exec
  sl_step
  isplitl [Hx' Ht']
  · isplitl [Hx']; · iapply (Entails.of_eq (pts_flat (F := F) d _ _)); iexact Hx'
    iapply (Entails.of_eq (pts_out_written (F := F) d _ _ _)); iexact Ht'
  isplitl [Hsb]; · iexact Hsb
  isplitl [Hsem Hrest Hsubs]
  · iapply (SparseCore.Cfg.scopedSems0_S_intro (Val := Elt F) d _)
    isplitl [Hsem Hrest]
    · rw [ownSems0_S]; isplitl [Hsem]
      · iexact Hsem
      · iexact Hrest
    · iexact Hsubs
  iexists (insert (SemLoc.dma cc0_scoped0.sem, (default : HIx 1)) W); isplitr
  · ipureintro; intro p hp
    rcases Finset.mem_insert.mp hp with hp | hp
    · exact .inr (hp ▸ rfl)
    · exact .inl hp
  · iexact HO

end Body

/-! ## The launch theorem's obligation -/

theorem defs₀_scalar (c : Fin τ.nSC) :
    defs₀ (F := F) (.scScalar c) 0 ()
      = SparseCore.onCore hcore0 (fun c => cc0__sc_slice_copy (coordsS c) flatW (Memref.isWhole_whole _) outW (Memref.isWhole_whole _) cc0_scoped0) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The sequencer's obligation at call 0: the one SparseCore of the grid runs `body`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact (body d h O W hO (V1 m d flat')).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's four arrays, all unscoped. -/
abbrev S4 : Finset (DevRef τ sig) := {x', flat', out', res'}

omit [FloatOps F] in
theorem held_S4 (d : Dev nD) (W : Valuation τ sig (Elt F)) :
    (held (T d) S4 W : sProp 𝕄) = iprop((xLoc d ↦{fullShare} W x') ∗ (flatLoc d ↦{fullShare} W flat') ∗ (outLoc d ↦{fullShare} W out')
      ∗ resLoc d ↦{fullShare} W res') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (flatLoc d ↦{fullShare} W main_v0) ∗ (outLoc d ↦{fullShare} W main_v1)
      ∗ resLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S4 (V0 m d) := by
  rw [unscopedBufs_eq, held_S4]; rfl

/-- What the call takes for the one SparseCore of its grid, and what it hands back. -/
theorem st0_eq (d : Dev nD) : (bigSep Finset.univ fun c : Fin ((K (F := F)).nCore 0) => (P m).st 0 d c)
    = iprop(flatPts d (V1 m d flat') ∗ ∃ f, outPts d f) := by
  show (bigSep (Finset.univ : Finset (Fin 1)) fun _ => iprop(flatPts d (V1 m d flat') ∗ ∃ f, outPts d f)) = _
  rw [show (Finset.univ : Finset (Fin 1)) = {0} by decide, bigSep_singleton]
theorem dn0_eq (d : Dev nD) : (bigSep Finset.univ fun c : Fin ((K (F := F)).nCore 0) => (P m).dn 0 d c)
    = iprop(flatPts d (V1 m d flat') ∗ outPts d (cut d (V1 m d flat'))) := by
  show (bigSep (Finset.univ : Finset (Fin 1)) fun _ => iprop(flatPts d (V1 m d flat') ∗ outPts d (cut d (V1 m d flat')))) = _
  rw [show (Finset.univ : Finset (Fin 1)) = {0} by decide, bigSep_singleton]

theorem hIn : (opIn (F := F)).bufs ⊆ S4 := show ({x', flat'} : Finset (DevRef τ sig)) ⊆ S4 by decide
theorem hOut : (opOut (F := F)).bufs ⊆ S4 := show ({out', res'} : Finset (DevRef τ sig)) ⊆ S4 by decide

/-- What @main leaves the claim: the argument and the result, each at its final contents. -/
abbrev FIN (d : Dev nD) : sProp 𝕄 := iprop((xLoc d ↦{fullShare} V3 m d x') ∗ resLoc d ↦{fullShare} V3 m d res')

/-- @main on device `d`'s TensorCore: the first re-laying, the call (the flat array and the destination out, the flat
    array and the filled destination back), the second re-laying. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opIn) (S := S4) hIn (V := V0 m d)) $$ [Hb Hheld]
  · isplitl [Hb]; · iexact Hb
    iexact Hheld
  iintro ⟨Hb, Hheld⟩
  rw [wp_ret]; imodintro
  ihave Hh := (Entails.of_eq (held_S4 (F := F) d _)) $$ Hheld
  icases Hh with ⟨Hx, Ha, Ho, Hr⟩
  -- the call: the flat array and the destination to the sequencer and back
  iapply ((K (F := F)).wp_run (D (F := F)) 𝒱 (EH := EH) (P := P m) κ d 0) $$ [Hst Hx Ha Ho Hb Hr]
  isplitr; · iexact Hctx
  isplitl [Hst]; · iexact Hst
  isplitl [Ha Ho]
  · rw [st0_eq]
    isplitl [Ha]; · iexact Ha
    iexists _; iexact Ho
  iintro ⟨Hst, Hdn⟩
  ihave Hdn' := (Entails.of_eq (dn0_eq m d)) $$ Hdn
  icases Hdn' with ⟨Ha, Ho⟩
  -- the second re-laying, over the four arrays with the destination at the slice
  iapply (wp_hlo_within 𝒱 (SparseCore.T d) none Set.univ (op := opOut) (S := S4) hOut (V := V2 m d)) $$ [Hb Hx Ha Ho Hr]
  · isplitl [Hb]; · iexact Hb
    rw [held_S4, V2_x, V2_flat, V2_out, V2_res]
    isplitl [Hx]; · iexact Hx
    isplitl [Ha]; · iexact Ha
    isplitl [Ho]; · iexact Ho
    iexact Hr
  iintro ⟨Hb, Hheld⟩
  ihave Hh := (Entails.of_eq (held_S4 (F := F) d _)) $$ Hheld
  icases Hh with ⟨Hx, -, -, Hr⟩
  rw [wp_ret]; imodintro; imodintro
  isplitl [Hst]; · iexact Hst
  isplitl [Hx]; · iexact Hx
  iexact Hr

/-! ## The final memory -/

def fq (d : Dev nD) (s' : Phys nD τ sig (Elt F)) : Prop :=
  s'.mem.mem (xLoc d) = V3 m d x' ∧ s'.mem.mem (resLoc d) = V3 m d res'

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := V3 m d x'))) $$ [HSI Hx]
  · isplitl [HSI] <;> iassumption
  icases H with ⟨%h1, HSI, -⟩
  ihave H := (SI_pointsTo_agree (st := s') (ℓ := resLoc d) (I := Finset.univ) (q := fullShare) (f := V3 m d res')) $$ [HSI Hr]
  · isplitl [HSI] <;> iassumption
  icases H with %h2
  ipureintro; exact ⟨funext fun i => h1 i (Finset.mem_univ i), funext fun i => h2 i (Finset.mem_univ i)⟩

/-! ## The program's run -/

/-- Every final memory: the result at the second re-laying of the slice of the first re-laying, the argument at its
    launch contents. -/
def QC : PUnit × MemSt nD τ sig (Elt F) → Prop := fun r => ∀ c : Dev nD,
  r.2.mem (resLoc c) = V3 m c res' ∧ r.2.mem (xLoc c) = m (xLoc c)

theorem run_main [∀ e, Nonempty (Elt F e)] : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m)
    (fun _ h c => ⟨(h c).2, (h c).1.trans (V3_x m c)⟩)

end Cert.Proof.SliceCopy

end
-- ==== Proof.SliceCopyIdeal.lean ====
/-
  The idealized kernel's run, with its result named.

  The program: the TensorCore re-lays the [100000, 128] argument as a flat array of 12 800 000 elements, starts ONE
  SparseCore's sequencer and waits for it, then re-lays the 2432-element array the sequencer filled as [19, 128].
  The sequencer's whole body is one copy — elements 256 … 2687 of the flat array into the 2432-element array — issued
  and waited for on the kernel's one copy semaphore. Nothing else touches either array while the copy is pending, so
  after the wait the destination holds exactly the source slice.

  What is proved here, for any float instance: every weakly fair execution of all the device's threads terminates
  without a fault, the argument array ends unchanged, and the result array ends at the second re-laying of the slice
  of the first re-laying of the argument (`V3 … res'`). That this composite is "rows 2 … 20 of the argument" is an
  index computation (`V3_res`): position (i, j) of the result is flat position 128·i + j of the slice, flat position
  256 + 128·i + j of the argument's re-laying, which is position (i + 2, j) of the argument.

  The handshake between the TensorCore and the sequencer carries the two arrays: on the way in, the flat array at the
  re-laid contents and the destination at whatever it holds; on the way back, the flat array unchanged and the
  destination at the slice. The sequencer's one wait is on its own copy semaphore while it owes nothing of its own, so
  it is always admissible.
-/
import Idealize.ShloMosaic.Lib.SparseCore.Launch
import Idealize.ShloMosaic.Lib.StableHlo.Run
import Idealize.ShloMosaic.Lib.Pipeline.Kit
import Idealize.ShloMosaic.Lib.Tactic
import proofs.«212989_g28733331210852_cont_9to1_1382_5_alg».proof.Proof.Gen.KernelIdeal
import proofs.«212989_g28733331210852_cont_9to1_1382_5_alg».proof.Proof.Gen.KernelIdeal.Skeleton

noncomputable section

namespace Cert.Proof.SliceCopyIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

local notation "flatW" => (Memref.whole Cert.KernelIdeal.main_v0_scs : Memref Cert.KernelIdeal.sig Kind.scScalar Space.hbm Cert.KernelIdeal.S12800000 EltTy.f32)
local notation "outW" => (Memref.whole Cert.KernelIdeal.main_v1_scs : Memref Cert.KernelIdeal.sig Kind.scScalar Space.hbm Cert.KernelIdeal.S2432 EltTy.f32)
abbrev xLoc (d : Dev nD) : Loc nD τ sig := (SparseCore.T d).loc main_arg0
abbrev flatLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2

variable [FloatOps F]

abbrev flatPts (d : Dev nD) (a : Buf (Elt F) (flatLoc d)) : sProp 𝕄 := flatLoc d ↦{fullShare} a
abbrev outPts (d : Dev nD) (f : Buf (Elt F) (outLoc d)) : sProp 𝕄 := outLoc d ↦{fullShare} f

/-- Elements 256 … 2687 of a flat array of 12 800 000: what the sequencer's copy carries. -/
def cut (d : Dev nD) (a : Buf (Elt F) (flatLoc d)) : Buf (Elt F) (outLoc d) :=
  ReadAs.same.apply
    (View.read (Elt F)
      ((flatW).slice (Rect.unit (s := S12800000) ![256] S2432.size inb_S12800000_S2432_256) (fun _ => rfl)).view a)

/-! ## The valuations of @main's arrays, step by step -/

abbrev x' : DevRef τ sig := Proc.devRef .tc (main_arg0 : Ref sig .tc)
abbrev flat' : DevRef τ sig := Proc.devRef .tc (main_v0 : Ref sig .tc)
abbrev out' : DevRef τ sig := Proc.devRef .tc (main_v1 : Ref sig .tc)
abbrev res' : DevRef τ sig := Proc.devRef .tc (main_v2 : Ref sig .tc)

/-- The first re-laying: [100000, 128] as a flat array. -/
abbrev opIn : HloOp τ sig (Elt F) := StableHlo.reshape main_arg0 main_v0 rfl shapeCasts_S100000x128_S12800000
/-- The second re-laying: 2432 elements as [19, 128]. -/
abbrev opOut : HloOp τ sig (Elt F) := StableHlo.reshape main_v1 main_v2 rfl shapeCasts_S2432_S19x128

/-- At the launch. -/
def V0 (d : Dev nD) : Valuation τ sig (Elt F) := fun b => m (d, b)
/-- After the first re-laying. -/
def V1 (d : Dev nD) : Valuation τ sig (Elt F) := (opIn (F := F)).result (V0 m d)
/-- After the sequencer's copy: the destination at the slice of the flat array. -/
def V2 (d : Dev nD) : Valuation τ sig (Elt F) := Function.update (V1 m d) out' (cut d (V1 m d flat'))
/-- After the second re-laying. -/
def V3 (d : Dev nD) : Valuation τ sig (Elt F) := (opOut (F := F)).result (V2 m d)

theorem V2_x (d : Dev nD) : V2 m d x' = V1 m d x' := Function.update_of_ne (show x' ≠ out' by decide) _ _
theorem V2_flat (d : Dev nD) : V2 m d flat' = V1 m d flat' := Function.update_of_ne (show flat' ≠ out' by decide) _ _
theorem V2_out (d : Dev nD) : V2 m d out' = cut d (V1 m d flat') := Function.update_self _ _ _
theorem V2_res (d : Dev nD) : V2 m d res' = V1 m d res' := Function.update_of_ne (show res' ≠ out' by decide) _ _

/-- The argument is written by neither re-laying nor by the copy. -/
theorem V3_x (d : Dev nD) : V3 m d x' = m (xLoc d) := by
  unfold V3
  rw [StableHlo.reshape_result_ne' (r := main_arg0) (h := by decide), V2_x]
  unfold V1
  rw [StableHlo.reshape_result_ne' (r := main_arg0) (h := by decide)]
  rfl

/-! ## What the handshakes carry -/

/-- Call 0's payloads: in, the flat array at its re-laid contents and the destination at anything; back, the flat array
    unchanged and the destination at the slice. The sequencer consumes nothing of the launch's. -/
def P : (K (F := F)).Pay (nD := nD) (Val := Elt F) (Name := ℕ) (U := UU) where
  st := fun _ d _ => iprop(flatPts d (V1 m d flat') ∗ ∃ f, outPts d f)
  dn := fun _ d _ => iprop(flatPts d (V1 m d flat') ∗ outPts d (cut d (V1 m d flat')))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's body -/

section Body

variable (d : Dev nD)

def coordsS (c : Fin (grid0.bound 0)) : grid0.Coords := fun | 0 => c | ⟨_ + 1, h⟩ => absurd h (Nat.not_lt.2 (Nat.le_add_left _ _))

abbrev c0cell (c : Fin τ.nSC) : GSem nD τ sig := (S d c, .dma cc0_scoped0.sem)

omit [FloatOps F] in
theorem ownSems0_S (c : Fin τ.nSC) :
    (ownSems0 (S d c) : sProp 𝕄) = iprop(semVal (c0cell d c) 0 ∗ bigSep ((ownCells (S d c)).erase (c0cell d c)) fun g => semVal g 0) := by
  unfold SparseCore.Cfg.ownSems0
  exact SparseCore.bigSep_erase' ((mem_ownCells (g := c0cell d c)).mpr ⟨rfl, by show (SemLoc.dma cc0_scoped0.sem : SemLoc sig).isScoped .scScalar = true; decide⟩)

omit [FloatOps F] in
/-- The flat array as the sequencer's memref addresses it is the TensorCore's array. -/
theorem pts_flat (c : Fin τ.nSC) (f : Buf (Elt F) (flatLoc d)) :
    ((flatW).view.loc (S d c) ↦{fullShare} f : sProp 𝕄) = flatLoc d ↦{fullShare} f := by
  simp only [Memref.view_whole, View.set_whole]
omit [FloatOps F] in
/-- The destination likewise. -/
theorem pts_out (c : Fin τ.nSC) (f : Buf (Elt F) (outLoc d)) :
    ((outW).view.loc (S d c) ↦{fullShare} f : sProp 𝕄) = outLoc d ↦{fullShare} f := by
  simp only [Memref.view_whole, View.set_whole]
omit [FloatOps F] in
/-- A write over the whole destination leaves exactly what was written. -/
theorem pts_out_written (c : Fin τ.nSC) (f w : Buf (Elt F) (outLoc d)) :
    ((outW).view.loc (S d c) ↦{fullShare} View.write (Elt F) (outW).view f w Finset.univ : sProp 𝕄) = outLoc d ↦{fullShare} w := by
  simp only [Memref.view_whole, View.set_whole, View.write_whole_univ]

/-- SparseCore 0's sequencer. -/
abbrev S0 (h : 0 < grid0.bound 0) : Thread nD τ := S d ((⟨0, h⟩ : Fin (grid0.bound 0)).castLE hcore0)

/-- The kernel on the sequencer: the copy is issued from the flat array's slice to the whole destination and waited for;
    afterwards the flat array is as it was and the destination holds the slice. -/
theorem body (h : 0 < grid0.bound 0) (O : CellTallies nD τ sig (HIx 1)) (W : Waits sig (HIx 1)) (hO : ∀ g, O g none = 0)
    (a : Buf (Elt F) (flatLoc d)) :
    iprop(levAts (K (F := F)).L (K (F := F)).lev ∗ emp ∗ (flatPts d a ∗ ∃ f, outPts d f)
        ∗ scopedBufs (S0 d h) ∗ scopedSems0 (S0 d h) ∗ owes (S0 d h) O W)
      ⊢ wp frame (wpE (defs₀ (F := F)) 𝒱₀ (S0 d h) none) Set.univ
          (cc0__sc_slice_copy (coordsS ⟨0, h⟩) flatW (Memref.isWhole_whole _) outW (Memref.isWhole_whole _) cc0_scoped0)
          fun _ => iprop((flatPts d a ∗ outPts d (cut d a)) ∗ scopedBufs (S0 d h) ∗ scopedSems0 (S0 d h)
            ∗ ∃ W', ⌜∀ p ∈ W', p ∈ W ∨ p.2 = none⌝ ∗ owes (S0 d h) O W') := by
  simp only [cc0__sc_slice_copy_eq_skeleton]; unfold cc0__sc_slice_copy_skel
  iintro ⟨#Hlv, -, ⟨Hx, %ft, Ht⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨Hsem, Hrest⟩
  ihave Hmw := ((K (F := F)).mayWaits_none (thr := S0 d h) hO) $$ Hlv
  ihave Hx' := (Entails.of_eq (pts_flat (F := F) d (((⟨0, h⟩ : Fin (grid0.bound 0))).castLE hcore0) _).symm) $$ Hx
  ihave Ht' := (Entails.of_eq (pts_out (F := F) d (((⟨0, h⟩ : Fin (grid0.bound 0))).castLE hcore0) _).symm) $$ Ht
  sl_exec
  sl_step
  isplitl [Hx' Ht']
  · isplitl [Hx']; · iapply (Entails.of_eq (pts_flat (F := F) d _ _)); iexact Hx'
    iapply (Entails.of_eq (pts_out_written (F := F) d _ _ _)); iexact Ht'
  isplitl [Hsb]; · iexact Hsb
  isplitl [Hsem Hrest Hsubs]
  · iapply (SparseCore.Cfg.scopedSems0_S_intro (Val := Elt F) d _)
    isplitl [Hsem Hrest]
    · rw [ownSems0_S]; isplitl [Hsem]
      · iexact Hsem
      · iexact Hrest
    · iexact Hsubs
  iexists (insert (SemLoc.dma cc0_scoped0.sem, (default : HIx 1)) W); isplitr
  · ipureintro; intro p hp
    rcases Finset.mem_insert.mp hp with hp | hp
    · exact .inr (hp ▸ rfl)
    · exact .inl hp
  · iexact HO

end Body

/-! ## The launch theorem's obligation -/

theorem defs₀_scalar (c : Fin τ.nSC) :
    defs₀ (F := F) (.scScalar c) 0 ()
      = SparseCore.onCore hcore0 (fun c => cc0__sc_slice_copy (coordsS c) flatW (Memref.isWhole_whole _) outW (Memref.isWhole_whole _) cc0_scoped0) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The sequencer's obligation at call 0: the one SparseCore of the grid runs `body`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact (body d h O W hO (V1 m d flat')).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's four arrays, all unscoped. -/
abbrev S4 : Finset (DevRef τ sig) := {x', flat', out', res'}

omit [FloatOps F] in
theorem held_S4 (d : Dev nD) (W : Valuation τ sig (Elt F)) :
    (held (T d) S4 W : sProp 𝕄) = iprop((xLoc d ↦{fullShare} W x') ∗ (flatLoc d ↦{fullShare} W flat') ∗ (outLoc d ↦{fullShare} W out')
      ∗ resLoc d ↦{fullShare} W res') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (flatLoc d ↦{fullShare} W main_v0) ∗ (outLoc d ↦{fullShare} W main_v1)
      ∗ resLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S4 (V0 m d) := by
  rw [unscopedBufs_eq, held_S4]; rfl

/-- What the call takes for the one SparseCore of its grid, and what it hands back. -/
theorem st0_eq (d : Dev nD) : (bigSep Finset.univ fun c : Fin ((K (F := F)).nCore 0) => (P m).st 0 d c)
    = iprop(flatPts d (V1 m d flat') ∗ ∃ f, outPts d f) := by
  show (bigSep (Finset.univ : Finset (Fin 1)) fun _ => iprop(flatPts d (V1 m d flat') ∗ ∃ f, outPts d f)) = _
  rw [show (Finset.univ : Finset (Fin 1)) = {0} by decide, bigSep_singleton]
theorem dn0_eq (d : Dev nD) : (bigSep Finset.univ fun c : Fin ((K (F := F)).nCore 0) => (P m).dn 0 d c)
    = iprop(flatPts d (V1 m d flat') ∗ outPts d (cut d (V1 m d flat'))) := by
  show (bigSep (Finset.univ : Finset (Fin 1)) fun _ => iprop(flatPts d (V1 m d flat') ∗ outPts d (cut d (V1 m d flat')))) = _
  rw [show (Finset.univ : Finset (Fin 1)) = {0} by decide, bigSep_singleton]

theorem hIn : (opIn (F := F)).bufs ⊆ S4 := show ({x', flat'} : Finset (DevRef τ sig)) ⊆ S4 by decide
theorem hOut : (opOut (F := F)).bufs ⊆ S4 := show ({out', res'} : Finset (DevRef τ sig)) ⊆ S4 by decide

/-- What @main leaves the claim: the argument and the result, each at its final contents. -/
abbrev FIN (d : Dev nD) : sProp 𝕄 := iprop((xLoc d ↦{fullShare} V3 m d x') ∗ resLoc d ↦{fullShare} V3 m d res')

/-- @main on device `d`'s TensorCore: the first re-laying, the call (the flat array and the destination out, the flat
    array and the filled destination back), the second re-laying. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opIn) (S := S4) hIn (V := V0 m d)) $$ [Hb Hheld]
  · isplitl [Hb]; · iexact Hb
    iexact Hheld
  iintro ⟨Hb, Hheld⟩
  rw [wp_ret]; imodintro
  ihave Hh := (Entails.of_eq (held_S4 (F := F) d _)) $$ Hheld
  icases Hh with ⟨Hx, Ha, Ho, Hr⟩
  -- the call: the flat array and the destination to the sequencer and back
  iapply ((K (F := F)).wp_run (D (F := F)) 𝒱 (EH := EH) (P := P m) κ d 0) $$ [Hst Hx Ha Ho Hb Hr]
  isplitr; · iexact Hctx
  isplitl [Hst]; · iexact Hst
  isplitl [Ha Ho]
  · rw [st0_eq]
    isplitl [Ha]; · iexact Ha
    iexists _; iexact Ho
  iintro ⟨Hst, Hdn⟩
  ihave Hdn' := (Entails.of_eq (dn0_eq m d)) $$ Hdn
  icases Hdn' with ⟨Ha, Ho⟩
  -- the second re-laying, over the four arrays with the destination at the slice
  iapply (wp_hlo_within 𝒱 (SparseCore.T d) none Set.univ (op := opOut) (S := S4) hOut (V := V2 m d)) $$ [Hb Hx Ha Ho Hr]
  · isplitl [Hb]; · iexact Hb
    rw [held_S4, V2_x, V2_flat, V2_out, V2_res]
    isplitl [Hx]; · iexact Hx
    isplitl [Ha]; · iexact Ha
    isplitl [Ho]; · iexact Ho
    iexact Hr
  iintro ⟨Hb, Hheld⟩
  ihave Hh := (Entails.of_eq (held_S4 (F := F) d _)) $$ Hheld
  icases Hh with ⟨Hx, -, -, Hr⟩
  rw [wp_ret]; imodintro; imodintro
  isplitl [Hst]; · iexact Hst
  isplitl [Hx]; · iexact Hx
  iexact Hr

/-! ## The final memory -/

def fq (d : Dev nD) (s' : Phys nD τ sig (Elt F)) : Prop :=
  s'.mem.mem (xLoc d) = V3 m d x' ∧ s'.mem.mem (resLoc d) = V3 m d res'

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := V3 m d x'))) $$ [HSI Hx]
  · isplitl [HSI] <;> iassumption
  icases H with ⟨%h1, HSI, -⟩
  ihave H := (SI_pointsTo_agree (st := s') (ℓ := resLoc d) (I := Finset.univ) (q := fullShare) (f := V3 m d res')) $$ [HSI Hr]
  · isplitl [HSI] <;> iassumption
  icases H with %h2
  ipureintro; exact ⟨funext fun i => h1 i (Finset.mem_univ i), funext fun i => h2 i (Finset.mem_univ i)⟩

/-! ## The program's run -/

/-- Every final memory: the result at the second re-laying of the slice of the first re-laying, the argument at its
    launch contents. -/
def QC : PUnit × MemSt nD τ sig (Elt F) → Prop := fun r => ∀ c : Dev nD,
  r.2.mem (resLoc c) = V3 m c res' ∧ r.2.mem (xLoc c) = m (xLoc c)

theorem run_main [∀ e, Nonempty (Elt F e)] : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m)
    (fun _ h c => ⟨(h c).2, (h c).1.trans (V3_x m c)⟩)

end Cert.Proof.SliceCopyIdeal

end
-- ==== Proof.Spec.lean ====
/-
  The function both programs compute: rows 2, …, 20 of a [100000, 128] array, laid out as a [19, 128] array.
  Entry (i, j) of the result is entry (i + 2, j) of the argument. There is no arithmetic: the result is a
  re-indexing of the argument, so the statement holds for any element type, and in particular for the extended
  reals (infinite entries included: nothing is added, multiplied or compared).
-/
import Idealize.ShloMosaic.Lib.ValueIdx

noncomputable section

namespace Cert.Spec

open Idealize.ShloMosaic Idealize.ShloMosaic.ValueIdx

/-- Where entry `(i, j)` of the result is read from: row `i + 2`, column `j` of the argument. -/
def src (i : Fin 19) (j : Fin 128) : (⟨2, ![100000, 128]⟩ : Shape).Idx :=
  ix2 (⟨i.val + 2, by have := i.isLt; omega⟩ : Fin 100000) j

/-- Rows 2 … 20 of `x`. -/
def rows {α : Type} (x : (⟨2, ![100000, 128]⟩ : Shape).Idx → α) : (⟨2, ![19, 128]⟩ : Shape).Idx → α :=
  fun k => x (src (k 0) (k 1))

/-- The result at row `i`, column `j`. -/
theorem rows_apply {α : Type} (x : (⟨2, ![100000, 128]⟩ : Shape).Idx → α) (i : Fin 19) (j : Fin 128) :
    rows x (ix2 i j) = x (src i j) := rfl

/-- The row a result entry is read from, as a number. -/
theorem src_row (i : Fin 19) (j : Fin 128) : (src i j 0).val = i.val + 2 := rfl

/-- The column a result entry is read from, as a number. -/
theorem src_col (i : Fin 19) (j : Fin 128) : (src i j 1).val = j.val := rfl

end Cert.Spec

end
-- ==== Proof.SliceCopyIdealValue.lean ====
/-
  The idealized kernel's result is rows 2 … 20 of its argument.

  The run (SliceCopyIdeal) names the result as: the argument re-laid flat, its elements 256 … 2687, re-laid as [19, 128].
  Re-laying keeps the row-major position. So entry (i, j) of the result is element 128·i + j of the slice, which is
  element 256 + 128·i + j of the flat array, whose row-major position in [100000, 128] is (i + 2, j), because
  256 + 128·i + j = 128·(i + 2) + j with j < 128. Nothing is computed with the elements themselves, so this holds for
  every element type.
-/
import proofs.«212989_g28733331210852_cont_9to1_1382_5_alg».proof.Proof.SliceCopyIdeal
import proofs.«212989_g28733331210852_cont_9to1_1382_5_alg».proof.Proof.Spec
import Idealize.ShloMosaic.Lib.Pipeline.Value
import Idealize.ShloMosaic.Lib.ValueIdx

noncomputable section

namespace Cert.Proof.SliceCopyIdeal

open Cert.KernelIdeal Cert.KernelIdeal.Gen
open Idealize.ShloMosaic Idealize.ShloMosaic.ValueIdx Idealize.ShloMosaic.Pipeline

variable {F : FTy → Type} [FloatOps F]
variable (m : (ℓ : Loc nD τ sig) → Buf (Elt F) ℓ)

/-- The slice read at position `k`: the flat array at position `256 + k`. -/
theorem cut_apply (d : Dev nD) (a : Buf (Elt F) (flatLoc d)) (k : Fin 2432) :
    cut d a (ix1 k) = a (ix1 (⟨256 + k.val, by have := k.isLt; omega⟩ : Fin 12800000)) := by
  unfold cut
  show a _ = a _
  refine congrArg a (funext fun t => Fin.ext ?_)
  match t with
  | ⟨0, _⟩ => show 256 + 1 * k.val = 256 + k.val; omega

/-- A [19, 128] re-laying of 2432 elements read at `(i, j)`: element `128·i + j`. -/
theorem relay_out_apply {α : Type} (w : S2432.Idx → α) (i : Fin 19) (j : Fin 128) :
    shapeCast S19x128 w shapeCasts_S2432_S19x128 (ix2 i j)
      = w (ix1 (⟨128 * i.val + j.val, by have := i.isLt; have := j.isLt; omega⟩ : Fin 2432)) := by
  refine shapeCast_apply w _ (ix2 i j) _ ?_
  rw [Shape.rowMajor_val_one, Shape.rowMajor_val_two]
  show 128 * i.val + j.val = i.val * 128 + j.val
  omega

/-- The flat re-laying of a [100000, 128] array read at position `256 + 128·i + j`: the array at `(i + 2, j)`. -/
theorem relay_in_apply {α : Type} (x : S100000x128.Idx → α) (i : Fin 19) (j : Fin 128) (hk : 256 + (128 * i.val + j.val) < 12800000) :
    shapeCast S12800000 x shapeCasts_S100000x128_S12800000 (ix1 (⟨256 + (128 * i.val + j.val), hk⟩ : Fin 12800000))
      = x (Cert.Spec.src i j) := by
  refine shapeCast_apply x _ _ (Cert.Spec.src i j) ?_
  rw [Shape.rowMajor_val_one, Shape.rowMajor_val_two]
  show (i.val + 2) * 128 + j.val = 256 + (128 * i.val + j.val)
  omega

/-- The result array after the run: rows 2 … 20 of the argument. -/
theorem V3_res (d : Dev nD) : V3 m d res' = Cert.Spec.rows (m (xLoc d)) := by
  funext k
  obtain ⟨i, j, rfl⟩ : ∃ (i : Fin 19) (j : Fin 128), k = ix2 i j := ⟨k 0, k 1, eq_ix2 k⟩
  unfold V3
  rw [StableHlo.reshape_result']
  show shapeCast S19x128 (V2 m d out') shapeCasts_S2432_S19x128 (ix2 i j) = _
  rw [relay_out_apply, V2_out, cut_apply]
  unfold V1
  rw [StableHlo.reshape_result']
  show shapeCast S12800000 (V0 m d x') shapeCasts_S100000x128_S12800000 _ = _
  exact relay_in_apply (V0 m d x') i j _

end Cert.Proof.SliceCopyIdeal

end
-- ==== Proof.RefRun.lean ====
/-
  The reference's run. The reference is one straight line of host operations once its two module-local
  functions are unfolded at their call sites: eight integer operations of @main that build the index vector
  (the numbers 0 … 18, plus two), then the twenty-two operations of the row-selection function with the one
  select of its helper in their midst, each over the buffer the call's record names for it. The line is listed
  here, shown equal to @main, and run: every weakly fair execution terminates, and each buffer ends at the fold
  of the operations over the launch contents.
-/
import proofs.«212989_g28733331210852_cont_9to1_1382_5_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's thirty-one operations in order, the calls unfolded: eight of @main's own (the index vector
    2, …, 20), then the row-selection function's — the wrap of a negative index (six operations and the
    helper's select), the index column, the two bounds tests and their conjunction reduced over the unit axis,
    the gather of rows, the mask broadcast along the rows, the fill constant and its broadcast, the final select. -/
abbrev ops : List (HloOp τ sig (Elt F)) :=
  [ nullary main_v0 (iotaInDim S19 32 0),
    unary main_v0 main_v1 (broadcastInDim S1x19 ![1] bcast_S19_S1x19_1 : (⟨S19, .i32⟩ : BufTy).Contents (Elt F) → (⟨S1x19, .i32⟩ : BufTy).Contents (Elt F)),
    nullary main_c (constantI S_ 32 2#32),
    unary main_c main_v2 (broadcastInDim S1x19 ![] bcast_S_S1x19 : (⟨S_, .i32⟩ : BufTy).Contents (Elt F) → (⟨S1x19, .i32⟩ : BufTy).Contents (Elt F)),
    binary main_v1 main_v2 main_v3 (addi : (⟨S1x19, .i32⟩ : BufTy).Contents (Elt F) → (⟨S1x19, .i32⟩ : BufTy).Contents (Elt F) → (⟨S1x19, .i32⟩ : BufTy).Contents (Elt F)),
    reshape main_v3 main_v4 rfl shapeCasts_S1x19_S19,
    unary main_v4 main_v5 (broadcastInDim S1x19 ![1] bcast_S19_S1x19_1 : (⟨S19, .i32⟩ : BufTy).Contents (Elt F) → (⟨S1x19, .i32⟩ : BufTy).Contents (Elt F)),
    reshape main_v5 main_v6 rfl shapeCasts_S1x19_S19,
    TRef.nullary main_call0.c (constantI S_ 32 0#32),
    TRef.unary main_call0.c main_call0.v0 (broadcastInDim S19 ![] bcast_S_S19),
    TRef.binary (.of main_v6 : TRef sig ⟨S19, .i32⟩) main_call0.v0 main_call0.v1 (cmpi .slt),
    TRef.nullary main_call0.c_0 (constantI S_ 32 100000#32),
    TRef.unary main_call0.c_0 main_call0.v2 (broadcastInDim S19 ![] bcast_S_S19),
    TRef.binary (.of main_v6 : TRef sig ⟨S19, .i32⟩) main_call0.v2 main_call0.v3 addi,
    TRef.ternary main_call0.v1 main_call0.v3 (.of main_v6 : TRef sig ⟨S19, .i32⟩) main_call0.call0.v0 select,
    TRef.unary main_call0.call0.v0 main_call0.v5 (broadcastInDim S19x1 ![0] bcast_S19_S19x1_0),
    TRef.nullary main_call0.c_1 (constantI S1 32 99999#32),
    TRef.nullary main_call0.c_2 (constantI S_ 32 0#32),
    TRef.unary main_call0.c_2 main_call0.v6 (broadcastInDim S19x1 ![] bcast_S_S19x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S19x1 ![0, 1] bcast_S1x1_S19x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S19x1_S19_d1 h_S_),
    TRef.binary (.of main_arg0 : TRef sig ⟨S100000x128, .f32⟩) main_call0.v5 main_call0.v13 (fun x i => Host.gather gather_S100000x128_S19x1_S19x128_1_0_n_n_0_1_1128 x i),
    TRef.unary main_call0.v12 main_call0.v14 (broadcastInDim S19x128 ![0] bcast_S19_S19x128_0),
    TRef.nullary main_call0.cst (constant S_ .f32 0x7FC00000#32),
    TRef.unary main_call0.cst main_call0.v15 (broadcastInDim S19x128 ![] bcast_S_S19x128),
    TRef.ternary main_call0.v14 main_call0.v13 main_call0.v15 main_call0.v16 select ]

-- thirty-one binds re-associated under two unfolded calls
set_option maxRecDepth 1024 in
/-- @main is that straight line: the two functions' definitions unfolded at their calls, both sides are one chain
    of host steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub .., reshape_bufs_sub ..,
    unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibTypedRef.lean ====
/-
  Typed references: the two transports between a value's type and its buffer's type are mutually inverse.

  A typed reference pairs a buffer with a proof that the buffer's type is the value's type; contents move between the
  two types by transport along that proof. Whatever the reference and the type, transporting there and back is the
  identity: once the type equation is substituted both transports are the identity function.
-/
import Idealize.ShloMosaic.Lib.StableHlo

namespace Idealize.ShloMosaic.StableHlo.TRef

variable {sig : RefSig} {Val : EltTy → Type} {T : BufTy}

/-- Contents transported to the buffer's type and back are the contents. -/
theorem ofBuf_toBuf (x : TRef sig T) (v : T.Contents Val) : x.ofBuf (x.toBuf v) = v := by
  obtain ⟨r, h, _, _⟩ := x
  subst h
  rfl

/-- Contents transported to the value's type and back are the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.RefValue.lean ====
/-
  The reference's value. The fold of the reference's thirty-one operations at the result buffer is one closed
  term of the argument's contents: a select between the gathered rows and a fill value, on a mask. The index
  vector holds the words 2, …, 20; none is negative, so the wrap leaves them; each lies in 0 … 99999, so the mask
  is set in every row and the gather's clamp leaves each start index as it is. Entry (i, j) of the result is
  therefore entry (i + 2, j) of the argument. Nothing here is float arithmetic: the statement holds for any
  element values, and is then stated of the run at the extended reals.
-/
import proofs.«212989_g28733331210852_cont_9to1_1382_5_alg».proof.Proof.RefRun
import proofs.«212989_g28733331210852_cont_9to1_1382_5_alg».proof.Proof.Spec
import proofs.«212989_g28733331210852_cont_9to1_1382_5_alg».proof.Proof.LibTypedRef
import Idealize.ShloMosaic.Lib.ValueIdx
import Idealize.ShloMosaic.PureOps.Reduce

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx

variable {F : FTy → Type} [FloatOps F]

/-- The index vector @main builds: the numbers 0, …, 18 along a row, plus two, the row flattened, laid along a row
    again and flattened again. -/
def idxv : IVec S19 32 :=
  shapeCast S19
    (broadcastInDim S1x19 ![1] bcast_S19_S1x19_1
      (shapeCast S19
        (addi (broadcastInDim S1x19 ![1] bcast_S19_S1x19_1 (iotaInDim S19 32 0))
          (broadcastInDim S1x19 ![] bcast_S_S1x19 (constantI S_ 32 2#32)))
        shapeCasts_S1x19_S19))
    shapeCasts_S1x19_S19

/-- The wrap of a negative index: where the index is below zero, the index plus the number of rows. -/
def wrapped (v : IVec S19 32) : IVec S19 32 :=
  select (cmpi .slt v (broadcastInDim S19 ![] bcast_S_S19 (constantI S_ 32 0#32)))
    (addi v (broadcastInDim S19 ![] bcast_S_S19 (constantI S_ 32 100000#32))) v

/-- The indices as a column of one-component start indices. -/
def col (v : IVec S19 32) : IVec S19x1 32 := broadcastInDim S19x1 ![0] bcast_S19_S19x1_0 (wrapped v)

/-- Per entry of the column, whether the index lies in 0 … 99999. -/
def inb (v : IVec S19 32) : IVec S19x1 1 :=
  andi (cmpi .sge (col v) (broadcastInDim S19x1 ![] bcast_S_S19x1 (constantI S_ 32 0#32)))
    (cmpi .sle (col v)
      (broadcastInDim S19x1 ![0, 1] bcast_S1x1_S19x1_0_1 (broadcastInDim S1x1 ![1] bcast_S1_S1x1_1 (constantI S1 32 99999#32))))

/-- The bounds mask: the conjunction of those tests reduced over the unit axis, one bit per row. -/
def mask (v : IVec S19 32) : IVec S19 1 :=
  Host.reduce IntOp.andi (inb v) (constantI S_ 1 1#1) reducesTo_S19x1_S19_d1 h_S_

/-- What the reference computes from the argument's contents: the gathered rows where the mask is set, the fill
    value elsewhere. -/
def out (x : FVec F S100000x128 .f32) : FVec F S19x128 .f32 :=
  select (broadcastInDim S19x128 ![0] bcast_S19_S19x128_0 (mask idxv))
    (Host.gather gather_S100000x128_S19x1_S19x128_1_0_n_n_0_1_1128 x (col idxv))
    (broadcastInDim S19x128 ![] bcast_S_S19x128 (constant S_ .f32 0x7FC00000#32))

/-! ## The fold at the result and at the argument -/

attribute [local irreducible] Host.reduce Host.gather in
set_option maxRecDepth 8192 in
set_option maxHeartbeats 800000 in
/-- The fold at the result buffer is that term of the argument's contents, by computation: each operation's result
    decides whether the buffer read is the one it writes, and a value carried to a buffer's type and back is the value. -/
theorem out_eq (V : Valuation τ sig (Elt F)) :
    after ops V (main_v7 : DevRef τ sig) = out (V (main_arg0 : DevRef τ sig)) := by
  after_results_simp
  simp only [TRef.ofBuf_toBuf]
  rfl

/-- No operation writes the argument's buffer. -/
theorem arg0_eq (V : Valuation τ sig (Elt F)) :
    after ops V (main_arg0 : DevRef τ sig) = V (main_arg0 : DevRef τ sig) := by
  after_results_simp

/-! ## The operations read at an index -/

section Reads
variable {α : Type}

/-- A vector laid along the row of a one-row matrix, read at a column: the vector's entry. -/
theorem row_apply (x : S19.Idx → α) (z : Fin 1) (i : Fin 19) :
    broadcastInDim S1x19 ![1] bcast_S19_S1x19_1 x (ix2 z i) = x (ix1 i) := by
  show x _ = x _
  congr 1; funext a
  obtain rfl : a = 0 := Subsingleton.elim _ _
  rfl

/-- A vector laid down a one-column matrix, read at a row: the vector's entry. -/
theorem colb_apply (x : S19.Idx → α) (i : Fin 19) (z : Fin 1) :
    broadcastInDim S19x1 ![0] bcast_S19_S19x1_0 x (ix2 i z) = x (ix1 i) := by
  show x _ = x _
  congr 1; funext a
  obtain rfl : a = 0 := Subsingleton.elim _ _
  rfl

/-- A vector repeated along every column of a matrix, read at an entry: the vector's entry of that row. -/
theorem rowsb_apply (x : S19.Idx → α) (i : Fin 19) (j : Fin 128) :
    broadcastInDim S19x128 ![0] bcast_S19_S19x128_0 x (ix2 i j) = x (ix1 i) := by
  show x _ = x _
  congr 1; funext a
  obtain rfl : a = 0 := Subsingleton.elim _ _
  rfl

/-- A one-row matrix flattened, read at an entry: the row's entry. -/
theorem flat_apply (x : S1x19.Idx → α) (i : Fin 19) :
    shapeCast S19 x shapeCasts_S1x19_S19 (ix1 i) = x (ix2 (0 : Fin 1) i) := by
  show x _ = x _
  congr 1
  refine Shape.reshapeEquiv_eq_of_rowMajor _ ?_
  rw [Shape.rowMajor_val_two, Shape.rowMajor_val_one]
  show 0 * 19 + i.val = i.val
  omega

end Reads

/-- The index word of row `i` is `i + 2`. -/
theorem idxv_apply (i : Fin 19) : idxv (ix1 i) = BitVec.ofNat 32 (i.val + 2) := by
  unfold idxv
  rw [flat_apply, row_apply, flat_apply]
  show IntOp.addi (broadcastInDim S1x19 ![1] bcast_S19_S1x19_1 (iotaInDim S19 32 0) (ix2 0 i)) 2#32 = _
  rw [row_apply, BitVec.ofNat_add]
  rfl

/-- The three comparisons and the clamp at the words 2, …, 20: none is negative, each lies in 0 … 99999. -/
theorem word_facts : ∀ i : Fin 19,
    IntOp.cmpi .slt (BitVec.ofNat 32 (i.val + 2)) 0#32 = 0#1 ∧
    IntOp.cmpi .sge (BitVec.ofNat 32 (i.val + 2)) 0#32 = 1#1 ∧
    IntOp.cmpi .sle (BitVec.ofNat 32 (i.val + 2)) 99999#32 = 1#1 ∧
    min (BitVec.ofNat 32 (i.val + 2)).toInt.toNat 99999 = i.val + 2 := by decide

/-- No index is negative, so the wrap leaves each as it is. -/
theorem wrapped_apply (i : Fin 19) : wrapped idxv (ix1 i) = BitVec.ofNat 32 (i.val + 2) := by
  show Scalar.select (IntOp.cmpi .slt (idxv (ix1 i)) 0#32) (IntOp.addi (idxv (ix1 i)) 100000#32) (idxv (ix1 i)) = _
  rw [idxv_apply, (word_facts i).1, select_zero]

theorem col_apply (i : Fin 19) (z : Fin 1) : col idxv (ix2 i z) = BitVec.ofNat 32 (i.val + 2) := by
  unfold col
  rw [colb_apply, wrapped_apply]

/-- Every entry of the column passes both bounds tests. -/
theorem inb_apply (k : S19x1.Idx) : inb idxv k = 1#1 := by
  obtain ⟨i, z, rfl⟩ : ∃ (i : Fin 19) (z : Fin 1), k = ix2 i z := ⟨k 0, k 1, eq_ix2 k⟩
  show IntOp.andi (IntOp.cmpi .sge (col idxv (ix2 i z)) 0#32) (IntOp.cmpi .sle (col idxv (ix2 i z)) 99999#32) = 1#1
  rw [col_apply, (word_facts i).2.1, (word_facts i).2.2.1]
  rfl

theorem reduces_S19x1_S19 : S19x1.Reduces [1] S19 := by decide

/-- A conjunction of ones, over any set of positions and from one, is one. -/
theorem fold_andi_ones {ι : Type} (s : Finset ι) : s.fold IntOp.andi (1#1 : BitVec 1) (fun _ => 1#1) = 1#1 := by
  classical
  refine Finset.induction_on s ?_ ?_
  · exact Finset.fold_empty
  · intro a s ha ih
    rw [Finset.fold_insert ha, ih]
    rfl

/-- So the mask is set in every row. -/
theorem mask_apply (j : S19.Idx) : mask idxv j = 1#1 := by
  unfold mask
  rw [show inb idxv = fun _ => 1#1 from funext inb_apply,
    Host.reduce_eq_fold_single IntOp.andi _ _ reducesTo_S19x1_S19_d1 reduces_S19x1_S19 h_S_ j]
  exact fold_andi_ones _

/-! ## The gather of rows, read at an entry -/

section Gather
variable {α : Type}

/-- Entry `(i, j)` of the gathered rows is the operand's entry in column `j` of row `r`, where `r` is the start index
    of row `i` read signed and clamped into 0 … 99999: the first operand axis is collapsed and carries the start, the
    second is the offset axis and carries the column. -/
theorem gather_rows_apply (x : S100000x128.Idx → α) (idx : IVec S19x1 32) (i : Fin 19) (j : Fin 128) (r : Fin 100000)
    (hr : min (idx (ix2 i (0 : Fin 1))).toInt.toNat 99999 = r.val) :
    Host.gather gather_S100000x128_S19x1_S19x128_1_0_n_n_0_1_1128 x idx (ix2 i j) = x (ix2 r j) := by
  unfold Host.gather
  congr 1
  funext a
  refine Fin.ext ?_
  show gather_S100000x128_S19x1_S19x128_1_0_n_n_0_1_1128.start (ix2 i j) idx a
      + gather_S100000x128_S19x1_S19x128_1_0_n_n_0_1_1128.batchCoord (ix2 i j) a
      + gather_S100000x128_S19x1_S19x128_1_0_n_n_0_1_1128.offCoord (ix2 i j) a = _
  rw [GatherDims.batchCoord_eq_zero _ _ _ List.not_mem_nil, Nat.add_zero]
  revert a
  refine Fin.forall_fin_two.mpr ⟨?_, ?_⟩
  · rw [GatherDims.offCoord_eq_zero _ _ _ (fun h => ((GatherDims.mem_sKept _ _).mp h).1 (List.mem_singleton.mpr rfl)), Nat.add_zero]
    unfold GatherDims.start
    split
    · rename_i ha
      have hsi : gather_S100000x128_S19x1_S19x128_1_0_n_n_0_1_1128.siIdx (ix2 i j)
          ⟨List.idxOf (0 : Fin 2) gather_S100000x128_S19x1_S19x128_1_0_n_n_0_1_1128.startIndexMap,
            List.idxOf_lt_length_iff.2 ha⟩ = ix2 i (0 : Fin 1) := by
        funext b; refine Fin.ext ?_
        revert b
        exact Fin.forall_fin_two.mpr ⟨rfl, rfl⟩
      rw [hsi]
      exact hr
    · rename_i ha
      exact absurd (List.mem_singleton.mpr rfl) ha
  · unfold GatherDims.start
    split
    · rename_i ha
      exact absurd (List.mem_singleton.mp ha) (by decide)
    · rw [Nat.zero_add]
      unfold GatherDims.offCoord
      split
      · rfl
      · rename_i hb
        exact absurd ((GatherDims.mem_sKept _ _).mpr
          ⟨fun h => absurd (List.mem_singleton.mp h) (by decide), List.not_mem_nil⟩) hb

end Gather

/-! ## The result -/

/-- Entry `(i, j)` of the result is entry `(i + 2, j)` of the argument: the mask is set, and the start index of
    row `i` is `i + 2`, inside the array, so the clamp leaves it. -/
theorem out_apply (x : FVec F S100000x128 .f32) (i : Fin 19) (j : Fin 128) : out x (ix2 i j) = x (Cert.Spec.src i j) := by
  unfold out
  rw [select_apply, rowsb_apply, mask_apply, select_one,
    gather_rows_apply x (col idxv) i j ⟨i.val + 2, by have := i.isLt; omega⟩
      (by rw [col_apply]; exact (word_facts i).2.2.2)]
  rfl

/-- The reference computes rows 2, …, 20 of its argument. -/
theorem out_eq_rows (x : FVec F S100000x128 .f32) : out x = Cert.Spec.rows x := by
  funext k
  obtain ⟨i, j, rfl⟩ : ∃ (i : Fin 19) (j : Fin 128), k = ix2 i j := ⟨k 0, k 1, eq_ix2 k⟩
  rw [out_apply, Cert.Spec.rows_apply]

/-! ## The run -/

/-- On every device, from any memory with zero counters: every weakly fair execution of the reference terminates
    with the result buffer at rows 2, …, 20 of the argument's launch contents and the argument unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread nD τ).loc main_v7) = Cert.Spec.rows (m ((c.tc : Thread nD τ).loc main_arg0))
        ∧ r.2.mem ((c.tc : Thread nD τ).loc main_arg0) = m ((c.tc : Thread nD τ).loc main_arg0) :=
  (θ_run defs _ _).mono
    (fun _ h c => ⟨(h c main_v7).trans ((out_eq _).trans (out_eq_rows _)), (h c main_arg0).trans (arg0_eq _)⟩)
    (run_main m ρ)

end Cert.ReferenceIdeal.RefValue

end
-- ==== Proof.lean ====
/-
  The proof of the certificate's claim: five conjuncts.

  The kernel and the reference both return rows 2 … 20 of a [100000, 128] array. The kernel re-lays the array flat, has one
  SparseCore sequencer copy elements 256 … 2687 (= 128·2 … 128·21 − 1) into a 2432-element array, and re-lays that as
  [19, 128]; the reference gathers rows i + 2 for i = 0 … 18 and would substitute a filler for an out-of-range row, which
  never happens because 2 ≤ i + 2 ≤ 20 < 100000. Neither side does arithmetic on the entries, so the two results agree as
  extended reals entry by entry with no appeal to the entries' being finite.

  * The two kernel programs (word-level and idealized) have the same text. Each one's run — every weakly fair execution of
    the TensorCore, the sequencers and the tiles terminates without a fault, the argument ends unchanged, the result ends
    at a named term of the argument — is in SliceCopy / SliceCopyIdeal; a frame is that run with the result forgotten.
  * The idealization rewrote nothing, so there is nothing to preserve.
  * The reference's run is in RefRun / RefValue; its frame is that run with the result forgotten.
  * The results agree because both named terms are `Cert.Spec.rows` of the argument (SliceCopyIdealValue, RefValue).
-/
import proofs.«212989_g28733331210852_cont_9to1_1382_5_alg».proof.Defs
import proofs.«212989_g28733331210852_cont_9to1_1382_5_alg».proof.Proof.Gen.Kernel
import proofs.«212989_g28733331210852_cont_9to1_1382_5_alg».proof.Proof.Gen.Kernel.Skeleton
import proofs.«212989_g28733331210852_cont_9to1_1382_5_alg».proof.Proof.Gen.KernelIdeal
import proofs.«212989_g28733331210852_cont_9to1_1382_5_alg».proof.Proof.Gen.KernelIdeal.Skeleton
import proofs.«212989_g28733331210852_cont_9to1_1382_5_alg».proof.Proof.Gen.ReferenceIdeal
import proofs.«212989_g28733331210852_cont_9to1_1382_5_alg».proof.Proof.Gen.Pre_finite_inputs
import Idealize.ShloMosaic.Adequacy
import Idealize.ShloMosaic.Init
import proofs.«212989_g28733331210852_cont_9to1_1382_5_alg».proof.Proof.SliceCopy
import proofs.«212989_g28733331210852_cont_9to1_1382_5_alg».proof.Proof.SliceCopyIdealValue
import proofs.«212989_g28733331210852_cont_9to1_1382_5_alg».proof.Proof.RefValue

noncomputable section

namespace Cert.Proof

open Idealize.ShloMosaic Idealize.SL.Sem

/-- The word-level kernel runs to the end without a fault and leaves its argument as it found it: its run, with the result
    forgotten. -/
theorem frame_kernel : Cert.frame_Kernel := fun m ρ _ =>
  (θ_run Cert.Kernel.defs _ _).mono (fun _ h c => (h c).2) (Cert.Proof.SliceCopy.run_main (F := Bits) m ρ)

/-- The same for the idealized kernel. -/
theorem frame_kernelIdeal : Cert.frame_KernelIdeal := fun m ρ _ =>
  (θ_run Cert.KernelIdeal.defs _ _).mono (fun _ h c => (h c).2) (Cert.Proof.SliceCopyIdeal.run_main (F := Ideal) m ρ)

/-- The reference is host operations only; its run ends with the argument unchanged. -/
theorem frame_referenceIdeal : Cert.frame_ReferenceIdeal := fun m ρ _ =>
  (θ_run Cert.ReferenceIdeal.defs _ _).mono (fun _ h c => (h c).2) (Cert.ReferenceIdeal.RefValue.run m ρ)

/-- Both programs end with rows 2 … 20 of the argument as their result: the kernel by copying elements 256 … 2687 of the
    flat re-laying (SliceCopyIdealValue), the reference by gathering rows `i + 2` for `i` = 0 … 18, every one of which is
    a valid row, so the out-of-range filler is never selected. From memories that agree on the argument the two results are
    therefore the same array, entry by entry; no arithmetic is done on the entries, so infinite entries are no exception. -/
theorem algebraic : Cert.algebraic_KernelIdeal_ReferenceIdeal := by
  intro m ρ m' ρ' _ hagree
  refine ⟨fun c => Cert.Proof.SliceCopyIdeal.V3 m c Cert.Proof.SliceCopyIdeal.res', ?_, ?_⟩
  · exact (θ_run Cert.KernelIdeal.defs _ _).mono (fun _ h c => ⟨(h c).1, (h c).2⟩)
      (Cert.Proof.SliceCopyIdeal.run_main (F := Ideal) m ρ)
  · refine (θ_run Cert.ReferenceIdeal.defs _ _).mono (fun _ h c => ⟨(h c).1.trans ?_, (h c).2⟩) (Cert.ReferenceIdeal.RefValue.run m' ρ')
    rw [hagree c]
    exact (Cert.Proof.SliceCopyIdeal.V3_res m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
